-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S50000x256 : Shape := ⟨2, ![50000, 256]⟩
abbrev S3x256x256 : Shape := ⟨3, ![3, 256, 256]⟩
abbrev S3x256 : Shape := ⟨2, ![3, 256]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg6 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : IVec S1000000 32) (main_arg1 : IVec S1000000 32) (main_arg2 : FVec F S1000000 .f32) (main_arg3 : FVec F S50000x256 .f32) (main_arg4 : FVec F S50000x256 .f32) (main_arg5 : FVec F S3x256x256 .f32) (main_arg6 : FVec F S3x256 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S50000x256 .f32 := Host.absf main_arg3
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_v13 main_v16
-- ==== Kernel.lean ====
abbrev S1000000 : Shape := ⟨1, ![1000000]⟩
abbrev S50000x256 : Shape := ⟨2, ![50000, 256]⟩
abbrev S3x256x256 : Shape := ⟨3, ![3, 256, 256]⟩
abbrev S3x256 : Shape := ⟨2, ![3, 256]⟩
abbrev S100000x256 : Shape := ⟨2, ![100000, 256]⟩
abbrev S1000000x1 : Shape := ⟨2, ![1000000, 1]⟩
abbrev S_ : Shape := ⟨0, ![]⟩
abbrev S1000000x256 : Shape := ⟨2, ![1000000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S4000x256 : Shape := ⟨2, ![4000, 256]⟩

abbrev nBuf : Space → Nat
  | .hbm => 79
  | .vmem => 18
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S50000x256, .f32⟩
  | .hbm, ⟨4, _⟩ => ⟨S50000x256, .f32⟩
  | .hbm, ⟨5, _⟩ => ⟨S3x256x256, .f32⟩
  | .hbm, ⟨6, _⟩ => ⟨S3x256, .f32⟩
  | .hbm, ⟨7, _⟩ => ⟨S100000x256, .f32⟩
  | .hbm, ⟨8, _⟩ => ⟨S1000000x1, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x256, .f32⟩
  | .hbm, ⟨18, _⟩ => ⟨S1000000x256, .f32⟩
  | .hbm, ⟨19, _⟩ => ⟨S1000000x256, .f32⟩
  | .hbm, ⟨20, _⟩ => ⟨S_, .f32⟩
  | .hbm, ⟨21, _⟩ => ⟨S100000x256, .f32⟩
  | .hbm, ⟨22, _⟩ => ⟨S1000000x1, .i32⟩
  | .hbm, ⟨23, _⟩ => ⟨S100000x256, .f32⟩
  | .hbm, ⟨24, _⟩ => ⟨S1x256x256, .f32⟩
  | .hbm, ⟨25, _⟩ => ⟨S256x256, .f32⟩
  | .hbm, ⟨26, _⟩ => ⟨S256x256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S100000x256, .f32⟩
  | .hbm, ⟨31, _⟩ => ⟨S1000000x1, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x256, .f32⟩
  | .hbm, ⟨41, _⟩ => ⟨S1000000x256, .f32⟩
  | .hbm, ⟨42, _⟩ => ⟨S1000000x256, .f32⟩
  | .hbm, ⟨43, _⟩ => ⟨S_, .f32⟩
  | .hbm, ⟨44, _⟩ => ⟨S100000x256, .f32⟩
  | .hbm, ⟨45, _⟩ => ⟨S1000000x1, .i32⟩
  | .hbm, ⟨46, _⟩ => ⟨S100000x256, .f32⟩
  | .hbm, ⟨47, _⟩ => ⟨S1x256x256, .f32⟩
  | .hbm, ⟨48, _⟩ => ⟨S256x256, .f32⟩
  | .hbm, ⟨49, _⟩ => ⟨S256x256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S100000x256, .f32⟩
  | .hbm, ⟨54, _⟩ => ⟨S1000000x1, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x256, .f32⟩
  | .hbm, ⟨64, _⟩ => ⟨S1000000x256, .f32⟩
  | .hbm, ⟨65, _⟩ => ⟨S1000000x256, .f32⟩
  | .hbm, ⟨66, _⟩ => ⟨S_, .f32⟩
  | .hbm, ⟨67, _⟩ => ⟨S100000x256, .f32⟩
  | .hbm, ⟨68, _⟩ => ⟨S1000000x1, .i32⟩
  | .hbm, ⟨69, _⟩ => ⟨S100000x256, .f32⟩
  | .hbm, ⟨70, _⟩ => ⟨S1x256x256, .f32⟩
  | .hbm, ⟨71, _⟩ => ⟨S256x256, .f32⟩
  | .hbm, ⟨72, _⟩ => ⟨S256x256, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S100000x256, .f32⟩
  | .hbm, ⟨77, _⟩ => ⟨S50000x256, .f32⟩
  | .hbm, ⟨78, _⟩ => ⟨S50000x256, .f32⟩
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S256x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S256x256, .f32⟩
  | .local _ .vmem, ⟨15, _⟩ => ⟨S1x256, .f32⟩
  | .local _ .vmem, ⟨16, _⟩ => ⟨S4000x256, .f32⟩
  | .local _ .vmem, ⟨17, _⟩ => ⟨S4000x256, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S50000x256_S50000x256_S100000x256_d0 : Shape.Concatenates [S50000x256, S50000x256] S100000x256 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x256_0_1 : S1000000x1.BroadcastsInDim S1000000x256 (![0, 1] : Fin 2 → Fin S1000000x256.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  slices_S100000x256_S50000x256_0_0 : S100000x256.Slices ![0, 0] S50000x256
  slices_S100000x256_S50000x256_50000_0 : S100000x256.Slices ![50000, 0] S50000x256
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S100000x256.size a
  hwx1_3 : ∀ i : grid1.Coords, EltTy.bits .f32 = 32 ∨ (Rect.block (s := S100000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x256.size a ≤ S100000x256.size a
  hwx2_3 : ∀ i : grid2.Coords, EltTy.bits .f32 = 32 ∨ (Rect.block (s := S100000x256) S4000x256.size (cc2_transform_3 i) (hinb2_3 i)).WholeWords (EltTy.packing .f32)

variable [Facts₀]

def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v13) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S4000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1000000 : Shape := ⟨1, ![1000000]⟩
abbrev S50000x256 : Shape := ⟨2, ![50000, 256]⟩
abbrev S3x256x256 : Shape := ⟨3, ![3, 256, 256]⟩
abbrev S3x256 : Shape := ⟨2, ![3, 256]⟩
abbrev S100000x256 : Shape := ⟨2, ![100000, 256]⟩
abbrev S1000000x1 : Shape := ⟨2, ![1000000, 1]⟩
abbrev S_ : Shape := ⟨0, ![]⟩
abbrev S1000000x256 : Shape := ⟨2, ![1000000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 91
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S50000x256, .f32⟩
  | .hbm, ⟨4, _⟩ => ⟨S50000x256, .f32⟩
  | .hbm, ⟨5, _⟩ => ⟨S3x256x256, .f32⟩
  | .hbm, ⟨6, _⟩ => ⟨S3x256, .f32⟩
  | .hbm, ⟨7, _⟩ => ⟨S100000x256, .f32⟩
  | .hbm, ⟨8, _⟩ => ⟨S1000000x1, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x256, .f32⟩
  | .hbm, ⟨18, _⟩ => ⟨S1000000x256, .f32⟩
  | .hbm, ⟨19, _⟩ => ⟨S1000000x256, .f32⟩
  | .hbm, ⟨20, _⟩ => ⟨S_, .f32⟩
  | .hbm, ⟨21, _⟩ => ⟨S100000x256, .f32⟩
  | .hbm, ⟨22, _⟩ => ⟨S1000000x1, .i32⟩
  | .hbm, ⟨23, _⟩ => ⟨S100000x256, .f32⟩
  | .hbm, ⟨24, _⟩ => ⟨S1x256x256, .f32⟩
  | .hbm, ⟨25, _⟩ => ⟨S256x256, .f32⟩
  | .hbm, ⟨26, _⟩ => ⟨S256x256, .f32⟩
  | .hbm, ⟨27, _⟩ => ⟨S100000x256, .f32⟩
  | .hbm, ⟨28, _⟩ => ⟨S1x256, .f32⟩
  | .hbm, ⟨29, _⟩ => ⟨S256, .f32⟩
  | .hbm, ⟨30, _⟩ => ⟨S1x256, .f32⟩
  | .hbm, ⟨31, _⟩ => ⟨S100000x256, .f32⟩
  | .hbm, ⟨32, _⟩ => ⟨S100000x256, .f32⟩
  | .hbm, ⟨33, _⟩ => ⟨S_, .f32⟩
  | .hbm, ⟨34, _⟩ => ⟨S100000x256, .f32⟩
  | .hbm, ⟨35, _⟩ => ⟨S100000x256, .f32⟩
  | .hbm, ⟨36, _⟩ => ⟨S1000000x1, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x256, .f32⟩
  | .hbm, ⟨46, _⟩ => ⟨S1000000x256, .f32⟩
  | .hbm, ⟨47, _⟩ => ⟨S1000000x256, .f32⟩
  | .hbm, ⟨48, _⟩ => ⟨S_, .f32⟩
  | .hbm, ⟨49, _⟩ => ⟨S100000x256, .f32⟩
  | .hbm, ⟨50, _⟩ => ⟨S1000000x1, .i32⟩
  | .hbm, ⟨51, _⟩ => ⟨S100000x256, .f32⟩
  | .hbm, ⟨52, _⟩ => ⟨S1x256x256, .f32⟩
  | .hbm, ⟨53, _⟩ => ⟨S256x256, .f32⟩
  | .hbm, ⟨54, _⟩ => ⟨S256x256, .f32⟩
  | .hbm, ⟨55, _⟩ => ⟨S100000x256, .f32⟩
  | .hbm, ⟨56, _⟩ => ⟨S1x256, .f32⟩
  | .hbm, ⟨57, _⟩ => ⟨S256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S100000x256, .f32⟩
  | .hbm, ⟨63, _⟩ => ⟨S100000x256, .f32⟩
  | .hbm, ⟨64, _⟩ => ⟨S1000000x1, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x256, .f32⟩
  | .hbm, ⟨74, _⟩ => ⟨S1000000x256, .f32⟩
  | .hbm, ⟨75, _⟩ => ⟨S1000000x256, .f32⟩
  | .hbm, ⟨76, _⟩ => ⟨S_, .f32⟩
  | .hbm, ⟨77, _⟩ => ⟨S100000x256, .f32⟩
  | .hbm, ⟨78, _⟩ => ⟨S1000000x1, .i32⟩
  | .hbm, ⟨79, _⟩ => ⟨S100000x256, .f32⟩
  | .hbm, ⟨80, _⟩ => ⟨S1x256x256, .f32⟩
  | .hbm, ⟨81, _⟩ => ⟨S256x256, .f32⟩
  | .hbm, ⟨82, _⟩ => ⟨S256x256, .f32⟩
  | .hbm, ⟨83, _⟩ => ⟨S100000x256, .f32⟩
  | .hbm, ⟨84, _⟩ => ⟨S1x256, .f32⟩
  | .hbm, ⟨85, _⟩ => ⟨S256, .f32⟩
  | .hbm, ⟨86, _⟩ => ⟨S1x256, .f32⟩
  | .hbm, ⟨87, _⟩ => ⟨S100000x256, .f32⟩
  | .hbm, ⟨88, _⟩ => ⟨S100000x256, .f32⟩
  | .hbm, ⟨89, _⟩ => ⟨S50000x256, .f32⟩
  | .hbm, ⟨90, _⟩ => ⟨S50000x256, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]

class Facts₀ : Prop where
  concatenates_S50000x256_S50000x256_S100000x256_d0 : Shape.Concatenates [S50000x256, S50000x256] S100000x256 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x256_0_1 : S1000000x1.BroadcastsInDim S1000000x256 (![0, 1] : Fin 2 → Fin S1000000x256.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  slices_S100000x256_S50000x256_0_0 : S100000x256.Slices ![0, 0] S50000x256
  slices_S100000x256_S50000x256_50000_0 : S100000x256.Slices ![50000, 0] S50000x256
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x256_S256x256_S100000x256_1_0_0_1_n_n_wf : DotDims.WF S100000x256 S256x256 S100000x256 [1] [0] [0] [1] [] []

variable [Facts₀]

def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.Spec.lean ====
/-
  The network both programs compute, as one function of the seven argument arrays.

  Three layers over N = 100000 nodes with D = 256 features.  Each layer first aggregates over the E = 1000000 edges —
      agg(f)(n, ·) = Σ over edges e with rows(e) = n of vals(e) · f(cols(e), ·)
  spelt with the host's own operations (the negative-index wrap of cols, a row gather, a product with the edge values
  spread over the columns, a scatter-add into zeros at rows): both programs run these same operations, so this file
  keeps them as one opaque function `agg` and never opens it.  Then a dense layer with the l-th weight matrix
  transposed and the l-th bias row:
      layer(x)(p, q) = act((Σ k, x(p, k) · W_l(q, k)) + b_l(q)),
  act the larger of the value and zero's word for l = 0, 1 and nothing for l = 2.  The features start as the two
  embedding tables stacked; the two results are the upper and the lower half of the last layer's rows.
-/
import proofs.«109556_j23759759082168_1_alg».proof.Proof.Gen.KernelIdeal
import proofs.«109556_j23759759082168_1_alg».proof.Proof.LibDense

noncomputable section

namespace Cert.KernelIdeal.Spec

open Cert.KernelIdeal Cert.KernelIdeal.Gen Idealize.ShloMosaic Cert.Lib.Dense

/-- The hidden layers' activation on the extended reals: the larger of the value and the value of the zero word. -/
def relu (z : EReal) : EReal := max z (Scalar.ofBits (F := Ideal) .f32 0x00000000#32)

/-- The last layer has no activation. -/
def lin (z : EReal) : EReal := z

/-- The aggregation over the edges, in the host's operations. -/
def agg (rows cols : (⟨S1000000, .i32⟩ : BufTy).Contents (Elt Ideal)) (vals : (⟨S1000000, .f32⟩ : BufTy).Contents (Elt Ideal))
    (feat : (⟨S100000x256, .f32⟩ : BufTy).Contents (Elt Ideal)) : (⟨S100000x256, .f32⟩ : BufTy).Contents (Elt Ideal) :=
  Host.scatterAdd scatter_S100000x256_S1000000x1_S1000000x256_1_0_0_1
    (broadcastInDim S100000x256 ![] bcast_S_S100000x256 (constant (F := Ideal) S_ .f32 0x00000000#32))
    (broadcastInDim S1000000x1 ![0] bcast_S1000000_S1000000x1_0 rows)
    (mulf (F := Ideal) (broadcastInDim S1000000x256 ![0, 1] bcast_S1000000x1_S1000000x256_0_1 (broadcastInDim S1000000x1 ![0] bcast_S1000000_S1000000x1_0 vals))
      (Host.gather gather_S100000x256_S1000000x1_S1000000x256_1_0_n_n_0_1_1256 feat
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 100000#32))) cols))))

/-- A layer's weight matrix as the kernel and the host's product take it: the layer's slice of the weights, its unit
    axis dropped, transposed. -/
def wOf (s : (⟨S1x256x256, .f32⟩ : BufTy).Contents (Elt Ideal)) : (⟨S256x256, .f32⟩ : BufTy).Contents (Elt Ideal) :=
  transpose S256x256 [1, 0] (shapeCast S256x256 s shapeCasts_S1x256x256_S256x256) transposes_S256x256_S256x256_1_0

/-- A layer's bias as a vector: the layer's slice of the biases, its unit axis dropped. -/
def bOf (s : (⟨S1x256, .f32⟩ : BufTy).Contents (Elt Ideal)) : (⟨S256, .f32⟩ : BufTy).Contents (Elt Ideal) :=
  shapeCast S256 s shapeCasts_S1x256_S256

/-- The bias vector as the row the dense layer takes. -/
def bRow (s : (⟨S1x256, .f32⟩ : BufTy).Contents (Elt Ideal)) : (⟨S1x256, .f32⟩ : BufTy).Contents (Elt Ideal) :=
  shapeCast S1x256 (bOf s) shapeCasts_S256_S1x256

/-- One layer: aggregate, then the dense layer. -/
def layer (act : EReal → EReal) (rows cols : (⟨S1000000, .i32⟩ : BufTy).Contents (Elt Ideal))
    (vals : (⟨S1000000, .f32⟩ : BufTy).Contents (Elt Ideal)) (feat : (⟨S100000x256, .f32⟩ : BufTy).Contents (Elt Ideal))
    (ws : (⟨S1x256x256, .f32⟩ : BufTy).Contents (Elt Ideal)) (bs : (⟨S1x256, .f32⟩ : BufTy).Contents (Elt Ideal)) :
    (⟨S100000x256, .f32⟩ : BufTy).Contents (Elt Ideal) :=
  dense act (agg rows cols vals feat) (wOf ws) (bRow bs)

section Net

variable (a0 a1 : (⟨S1000000, .i32⟩ : BufTy).Contents (Elt Ideal)) (a2 : (⟨S1000000, .f32⟩ : BufTy).Contents (Elt Ideal))
  (a3 a4 : (⟨S50000x256, .f32⟩ : BufTy).Contents (Elt Ideal)) (a5 : (⟨S3x256x256, .f32⟩ : BufTy).Contents (Elt Ideal))
  (a6 : (⟨S3x256, .f32⟩ : BufTy).Contents (Elt Ideal))

/-- The starting features: the two embedding tables stacked. -/
def feat0 : (⟨S100000x256, .f32⟩ : BufTy).Contents (Elt Ideal) :=
  concatenate S100000x256 0 [⟨S50000x256, a3⟩, ⟨S50000x256, a4⟩] concatenates_S50000x256_S50000x256_S100000x256_d0

/-- After the first layer. -/
def feat1 : (⟨S100000x256, .f32⟩ : BufTy).Contents (Elt Ideal) :=
  layer relu a0 a1 a2 (feat0 a3 a4) (extractStridedSlice S1x256x256 ![0, 0, 0] a5 slices_S3x256x256_S1x256x256_0_0_0)
    (extractStridedSlice S1x256 ![0, 0] a6 slices_S3x256_S1x256_0_0)

/-- After the second layer. -/
def feat2 : (⟨S100000x256, .f32⟩ : BufTy).Contents (Elt Ideal) :=
  layer relu a0 a1 a2 (feat1 a0 a1 a2 a3 a4 a5 a6) (extractStridedSlice S1x256x256 ![1, 0, 0] a5 slices_S3x256x256_S1x256x256_1_0_0)
    (extractStridedSlice S1x256 ![1, 0] a6 slices_S3x256_S1x256_1_0)

/-- After the third layer. -/
def feat3 : (⟨S100000x256, .f32⟩ : BufTy).Contents (Elt Ideal) :=
  layer lin a0 a1 a2 (feat2 a0 a1 a2 a3 a4 a5 a6) (extractStridedSlice S1x256x256 ![2, 0, 0] a5 slices_S3x256x256_S1x256x256_2_0_0)
    (extractStridedSlice S1x256 ![2, 0] a6 slices_S3x256_S1x256_2_0)

/-- The first result: the upper half of the rows. -/
def outUpper : (⟨S50000x256, .f32⟩ : BufTy).Contents (Elt Ideal) :=
  extractStridedSlice S50000x256 ![0, 0] (feat3 a0 a1 a2 a3 a4 a5 a6) slices_S100000x256_S50000x256_0_0

/-- The second result: the lower half of the rows. -/
def outLower : (⟨S50000x256, .f32⟩ : BufTy).Contents (Elt Ideal) :=
  extractStridedSlice S50000x256 ![50000, 0] (feat3 a0 a1 a2 a3 a4 a5 a6) slices_S100000x256_S50000x256_50000_0

end Net

end Cert.KernelIdeal.Spec

end
-- ==== Proof.LibDenseRow.lean ====
/-
  A dense layer on the matrix unit whose bias arrives as a one-row block.

  On the extended reals narrowing an operand to bf16 changes nothing, a cast of a shape to itself is the identity, and a
  product accumulated from zero is the plain sum over the contracted coordinate.  So a block computed as
      matmul(bf16(x), bf16(w), 0) + rows(b)          with b a [1, N] row
  is at entry (p, q) the row p of x against the column q of w, plus b(0, q): the dense layer of LibDense with the
  identity as activation.  With a pointwise activation on top it is the dense layer with that activation.
-/
import proofs.«109556_j23759759082168_1_alg».proof.Proof.LibDense
import Idealize.ShloMosaic.Lib.ValueLayout

noncomputable section

namespace Cert.Lib.DenseRow

open Idealize.ShloMosaic Idealize.ShloMosaic.ValueIdx Cert.Lib.Dense
open scoped BigOperators

section Block

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- The matrix unit's layer with a row bias, at entry `(p, q)`: both operands cast to their own shapes and narrowed
    to bf16 (identities on the extended reals), the product accumulated from zero, the bias row cast to its own shape
    and spread over the rows. -/
theorem mxu_row_apply (x : FVec Ideal ⟨2, ![M, K]⟩ .f32) (w : FVec Ideal ⟨2, ![K, N]⟩ .f32) (b : FVec Ideal ⟨2, ![1, N]⟩ .f32)
    (hbits : FTy.bits .bf16 < FTy.bits .f32)
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩)
    (hbr : (⟨2, ![1, N]⟩ : Shape).Broadcasts ⟨2, ![M, N]⟩) (p : Fin M) (q : Fin N) :
    addf (F := Ideal)
        (matmul D none (truncf .bf16 (shapeCast ⟨2, ![M, K]⟩ x hx) hbits) (truncf .bf16 (shapeCast ⟨2, ![K, N]⟩ w hw) hbits)
          (constant ⟨2, ![M, N]⟩ .f32 0x00000000#32))
        (broadcastTo ⟨2, ![M, N]⟩ (shapeCast ⟨2, ![1, N]⟩ b hb) hbr) (ix2 p q)
      = rowDot x w p q + b (ix2 (0 : Fin 1) q) := by
  rw [shapeCast_self x hx, shapeCast_self w hw, shapeCast_self b hb]
  refine congrArg₂ (fun u v : EReal => u + v) ?_ ?_
  · exact matmul_zero_at D hlc hrc hln hrn hlb hrb (truncf .bf16 x hbits) (truncf .bf16 w hbits) p q
  · exact broadcastTo_1b_ab_apply b hbr p q

include hlc hrc hln hrn hlb hrb in
/-- The same block under a pointwise activation is the dense layer with that activation, as whole blocks. -/
theorem mxu_row_eq_dense (act : EReal → EReal) (x : FVec Ideal ⟨2, ![M, K]⟩ .f32) (w : FVec Ideal ⟨2, ![K, N]⟩ .f32)
    (b : FVec Ideal ⟨2, ![1, N]⟩ .f32) (hbits : FTy.bits .bf16 < FTy.bits .f32)
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩)
    (hbr : (⟨2, ![1, N]⟩ : Shape).Broadcasts ⟨2, ![M, N]⟩) :
    (fun i => act (addf (F := Ideal)
        (matmul D none (truncf .bf16 (shapeCast ⟨2, ![M, K]⟩ x hx) hbits) (truncf .bf16 (shapeCast ⟨2, ![K, N]⟩ w hw) hbits)
          (constant ⟨2, ![M, N]⟩ .f32 0x00000000#32))
        (broadcastTo ⟨2, ![M, N]⟩ (shapeCast ⟨2, ![1, N]⟩ b hb) hbr) i))
      = dense act x w b := by
  funext i
  obtain ⟨p, q, rfl⟩ : ∃ (p : Fin M) (q : Fin N), i = ix2 p q := ⟨i 0, i 1, eq_ix2 i⟩
  rw [dense_ix2]
  exact congrArg act (mxu_row_apply D hlc hrc hln hrn hlb hrb x w b hbits hx hw hb hbr p q)

end Block

/-- A dense layer read on a block of rows: when row `p` of the block `xb` is row `r` of the whole array `X`, and the
    weight and bias blocks are the whole weight and bias arrays, the block's layer at `(p, q)` is the whole array's
    layer at `(r, q)`. -/
theorem dense_of_row {m M K N : ℕ} (act : EReal → EReal)
    (xb : (⟨2, ![m, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (p : Fin m) (r : Fin M) (q : Fin N)
    (hx : ∀ k : Fin K, xb (ix2 p k) = X (ix2 r k)) (hw : ∀ k : Fin K, wb (ix2 k q) = W (ix2 k q))
    (hb : bb (ix2 (0 : Fin 1) q) = B (ix2 (0 : Fin 1) q)) :
    dense act xb wb bb (ix2 p q) = dense act X W B (ix2 r q) := by
  rw [dense_ix2, dense_ix2, hb]
  exact congrArg (fun z : EReal => act (z + B (ix2 (0 : Fin 1) q)))
    (Finset.sum_congr rfl fun k _ => by rw [hx k, hw k])

end Cert.Lib.DenseRow

end
-- ==== Proof.Layer0.lean ====
/-
  Launch 0 of the dense-layer kernel, as one function of whole arrays.

  The launch walks 25 blocks of 4000 rows.  At block t the body reads rows 4000·t … 4000·t + 3999 of the [100000, 256]
  input, the whole [256, 256] weight matrix and the whole [1, 256] bias row, and writes the same rows of the output:
  entry (p, q) of what it writes is the larger of zero's word and (∑ k, x(4000·t + p, k) · w(k, q)) + b(0, q).
  The 25 blocks tile the output, so after the launch the output array is the dense layer of the three arrays as the
  launch finds them, entry by entry.
-/
import proofs.«109556_j23759759082168_1_alg».proof.Proof.Gen.KernelIdeal.Frame
import proofs.«109556_j23759759082168_1_alg».proof.Proof.LibDenseRow
import proofs.«109556_j23759759082168_1_alg».proof.Proof.Spec
import Idealize.ShloMosaic.Lib.Pipeline.Value
import Idealize.ShloMosaic.Lib.ValueIdx

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.Dense Cert.Lib.DenseRow

/-- The layer's activation. -/
abbrev act : EReal → EReal := Spec.relu

theorem zeros2 : (![0, 0] : Fin 2 → Nat) = fun _ => 0 := funext fun a => by fin_cases a <;> rfl

/-- The body's stored value is the dense layer of the three blocks it loads. -/
theorem pay_eq (x0 : Vec Ideal S4000x256 .f32) (x1 : Vec Ideal S256x256 .f32) (x2 : Vec Ideal S1x256 .f32) :
    k0_pay1 (F := Ideal) x0 x1 x2 = dense act x0 x1 x2 :=
  mxu_row_eq_dense dot_S4000x256_S256x256_S4000x256_1_0_0_1_n_n rfl rfl rfl rfl rfl rfl act x0 x1 x2 bitsLt_bf16_f32
    shapeCasts_S4000x256_S4000x256 shapeCasts_S256x256_S256x256 shapeCasts_S1x256_S1x256 broadcasts_S1x256_S4000x256

/-- The blocks' positions, decided over the 25 points: the input and output blocks sit at row block `t`, the weight
    matrix and the bias row are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Dense layers of a row block against the whole arrays: stated over plain arrays. -/
theorem block_layer (X : S100000x256.Idx → EReal) (W : S256x256.Idx → EReal) (B : S1x256.Idx → EReal)
    (xb : S4000x256.Idx → EReal) (wb : S256x256.Idx → EReal) (bb : S1x256.Idx → EReal)
    (j : S4000x256.Idx) (i : S100000x256.Idx) (hi1 : i 1 = j 1)
    (hx : ∀ k : Fin 256, xb (ix2 (j 0) k) = X (ix2 (i 0) k)) (hw : wb = W) (hb : bb = B) :
    dense act xb wb bb j = dense act X W B i := by
  subst hw hb
  have ej : j = ix2 (j 0) (j 1) := eq_ix2 j
  have ei : i = ix2 (i 0) (j 1) := by rw [← hi1]; exact eq_ix2 i
  rw [ej, ei]
  exact dense_of_row act xb X wb wb bb bb (j 0) (i 0) (j 1) hx (fun _ => rfl) rfl

variable (V : (c : Dev nD) → (b : Ref sig .tc) → Buf (Elt Ideal) ((c : Thread nD τ).loc b))

/-- The weight window's block is the whole weight matrix. -/
theorem read_w (c : Dev nD) (t : Fin cfg0.N) : (iblk0 V c 1 t : S256x256.Idx → EReal) = (V c main_v16 : S256x256.Idx → EReal) := by
  obtain ⟨-, -, e2, e3, -, -, -, -⟩ := idx_facts t
  funext y
  unfold iblk0
  rw [View.read_apply]
  show V c main_v16 (((cfg0.win 1).blk t).view.emb y) = V c main_v16 y
  refine congrArg (V c main_v16) ?_
  funext a; apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias window's block is the whole bias row. -/
theorem read_b (c : Dev nD) (t : Fin cfg0.N) : (iblk0 V c 2 t : S1x256.Idx → EReal) = (V c main_v19 : S1x256.Idx → EReal) := by
  obtain ⟨-, -, -, -, e4, e5, -, -⟩ := idx_facts t
  funext y
  unfold iblk0
  rw [View.read_apply]
  show V c main_v19 (((cfg0.win 2).blk t).view.emb y) = V c main_v19 y
  refine congrArg (V c main_v19) ?_
  funext a; apply Fin.ext
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-- The input window's block at point `t` is rows `4000·t …` of the input array. -/
theorem read_x (c : Dev nD) (t : Fin cfg0.N) (y : S4000x256.Idx) (i : S100000x256.Idx)
    (h0 : (i 0).val = t.val * 4000 + (y 0).val) (h1 : (i 1).val = (y 1).val) :
    (iblk0 V c 0 t : S4000x256.Idx → EReal) y = (V c main_v13 : S100000x256.Idx → EReal) i := by
  obtain ⟨e0, e1, -, -, -, -, -, -⟩ := idx_facts t
  unfold iblk0
  rw [View.read_apply]
  show V c main_v13 (((cfg0.win 0).blk t).view.emb y) = V c main_v13 i
  refine congrArg (V c main_v13) ?_
  funext a; apply Fin.ext
  match a with
  | ⟨0, _⟩ => show win0_0.index t (0 : Fin 2) * 4000 + 1 * (y 0).val = (i 0).val; rw [e0, h0]; omega
  | ⟨1, _⟩ => show win0_0.index t (1 : Fin 2) * 256 + 1 * (y 1).val = (i 1).val; rw [e1, h1]; omega

/-- WHAT POINT `t` WRITES BACK is block `t` of the dense layer of the arrays as the launch finds them. -/
theorem flushed_eq (c : Dev nD) (t : Fin cfg0.N) :
    (dat0 V c).flushed 3 t = ((cfg0.win 3).blk t).view.read (Elt Ideal)
      (dense act (V c main_v13 : S100000x256.Idx → EReal) (V c main_v16 : S256x256.Idx → EReal) (V c main_v19 : S1x256.Idx → EReal)) := by
  show (cfg0.win 3).cut (grid0.coords t) ((dat0 V c).after 3 t) = _
  rw [after0_3]
  unfold out0_3
  rw [View.canon_unit_zero zeros2]
  simp only [View.ld_unit_zero (S := S4000x256) zeros2, View.ld_unit_zero (S := S256x256) zeros2, View.ld_unit_zero (S := S1x256) zeros2]
  rw [pay_eq]
  obtain ⟨-, -, -, -, -, -, e6, e7⟩ := idx_facts t
  funext j
  rw [View.read_apply]
  refine block_layer (V c main_v13) (V c main_v16) (V c main_v19) (iblk0 V c 0 t) (iblk0 V c 1 t) (iblk0 V c 2 t) j
    (((cfg0.win 3).blk t).view.emb j) ?_ (fun k => ?_) (read_w V c t) (read_b V c t)
  · apply Fin.ext
    show win0_3.index t (1 : Fin 2) * 256 + 1 * (j 1).val = (j 1).val
    rw [e7]; omega
  · refine read_x V c t _ _ ?_ rfl
    show win0_3.index t (0 : Fin 2) * 4000 + 1 * (j 0).val = t.val * 4000 + (j 0).val
    rw [e6]; omega

/-- An index of the output array is in point `t`'s block iff each coordinate is in the block's range on its axis. -/
theorem mem_blk (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v20).slice (win0_3.rect t)).set ↔ _
  rw [View.set_slice_whole, Rect.mem_set_unit]
  exact Iff.rfl

/-- The 25 row blocks tile the output: row `r` is in block `r / 4000`. -/
theorem cover (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 25 := N_0
  have ht : (i 0).val / 4000 < cfg0.N := by rw [hN]; omega
  obtain ⟨-, -, -, -, -, -, e6, e7⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, ht⟩ (1 : Fin 2) * 256 ≤ (i 1).val ∧ (i 1).val < win0_3.index ⟨(i 0).val / 4000, ht⟩ (1 : Fin 2) * 256 + 256
    rw [e7]; omega

/-- THE OUTPUT ARRAY after the launch: the dense layer of the input, weight and bias arrays as the launch finds them. -/
theorem layer_out (c : Dev nD) :
    (dat0 V c).arrAt 3 cfg0.N
      = dense act (V c main_v13 : S100000x256.Idx → EReal) (V c main_v16 : S256x256.Idx → EReal) (V c main_v19 : S1x256.Idx → EReal) :=
  (dat0 V c).arrAt_eq_of_cover 3 _ (fun t _ => flushed_eq V c t) cover

end Cert.KernelIdeal.Layer0

end
-- ==== Proof.Layer1.lean ====
/-
  Launch 1 of the dense-layer kernel, as one function of whole arrays.

  The launch walks 25 blocks of 4000 rows.  At block t the body reads rows 4000·t … 4000·t + 3999 of the [100000, 256]
  input, the whole [256, 256] weight matrix and the whole [1, 256] bias row, and writes the same rows of the output:
  entry (p, q) of what it writes is the larger of zero's word and (∑ k, x(4000·t + p, k) · w(k, q)) + b(0, q).
  The 25 blocks tile the output, so after the launch the output array is the dense layer of the three arrays as the
  launch finds them, entry by entry.
-/
import proofs.«109556_j23759759082168_1_alg».proof.Proof.Gen.KernelIdeal.Frame
import proofs.«109556_j23759759082168_1_alg».proof.Proof.LibDenseRow
import proofs.«109556_j23759759082168_1_alg».proof.Proof.Spec
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.Dense Cert.Lib.DenseRow

/-- The layer's activation. -/
abbrev act : EReal → EReal := Spec.relu

theorem zeros2 : (![0, 0] : Fin 2 → Nat) = fun _ => 0 := funext fun a => by fin_cases a <;> rfl

/-- The body's stored value is the dense layer of the three blocks it loads. -/
theorem pay_eq (x0 : Vec Ideal S4000x256 .f32) (x1 : Vec Ideal S256x256 .f32) (x2 : Vec Ideal S1x256 .f32) :
    k1_pay1 (F := Ideal) x0 x1 x2 = dense act x0 x1 x2 :=
  mxu_row_eq_dense dot_S4000x256_S256x256_S4000x256_1_0_0_1_n_n rfl rfl rfl rfl rfl rfl act x0 x1 x2 bitsLt_bf16_f32
    shapeCasts_S4000x256_S4000x256 shapeCasts_S256x256_S256x256 shapeCasts_S1x256_S1x256 broadcasts_S1x256_S4000x256

/-- The blocks' positions, decided over the 25 points: the input and output blocks sit at row block `t`, the weight
    matrix and the bias row are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Dense layers of a row block against the whole arrays: stated over plain arrays. -/
theorem block_layer (X : S100000x256.Idx → EReal) (W : S256x256.Idx → EReal) (B : S1x256.Idx → EReal)
    (xb : S4000x256.Idx → EReal) (wb : S256x256.Idx → EReal) (bb : S1x256.Idx → EReal)
    (j : S4000x256.Idx) (i : S100000x256.Idx) (hi1 : i 1 = j 1)
    (hx : ∀ k : Fin 256, xb (ix2 (j 0) k) = X (ix2 (i 0) k)) (hw : wb = W) (hb : bb = B) :
    dense act xb wb bb j = dense act X W B i := by
  subst hw hb
  have ej : j = ix2 (j 0) (j 1) := eq_ix2 j
  have ei : i = ix2 (i 0) (j 1) := by rw [← hi1]; exact eq_ix2 i
  rw [ej, ei]
  exact dense_of_row act xb X wb wb bb bb (j 0) (i 0) (j 1) hx (fun _ => rfl) rfl

variable (V : (c : Dev nD) → (b : Ref sig .tc) → Buf (Elt Ideal) ((c : Thread nD τ).loc b))

/-- The weight window's block is the whole weight matrix. -/
theorem read_w (c : Dev nD) (t : Fin cfg1.N) : (iblk1 V c 1 t : S256x256.Idx → EReal) = (V c main_v36 : S256x256.Idx → EReal) := by
  obtain ⟨-, -, e2, e3, -, -, -, -⟩ := idx_facts t
  funext y
  unfold iblk1
  rw [View.read_apply]
  show V c main_v36 (((cfg1.win 1).blk t).view.emb y) = V c main_v36 y
  refine congrArg (V c main_v36) ?_
  funext a; apply Fin.ext
  match a with
  | ⟨0, _⟩ => show win1_1.index t (0 : Fin 2) * 256 + 1 * (y 0).val = (y 0).val; rw [e2]; omega
  | ⟨1, _⟩ => show win1_1.index t (1 : Fin 2) * 256 + 1 * (y 1).val = (y 1).val; rw [e3]; omega

/-- The bias window's block is the whole bias row. -/
theorem read_b (c : Dev nD) (t : Fin cfg1.N) : (iblk1 V c 2 t : S1x256.Idx → EReal) = (V c main_v39 : S1x256.Idx → EReal) := by
  obtain ⟨-, -, -, -, e4, e5, -, -⟩ := idx_facts t
  funext y
  unfold iblk1
  rw [View.read_apply]
  show V c main_v39 (((cfg1.win 2).blk t).view.emb y) = V c main_v39 y
  refine congrArg (V c main_v39) ?_
  funext a; apply Fin.ext
  match a with
  | ⟨0, _⟩ => show win1_2.index t (0 : Fin 2) * 1 + 1 * (y 0).val = (y 0).val; rw [e4]; omega
  | ⟨1, _⟩ => show win1_2.index t (1 : Fin 2) * 256 + 1 * (y 1).val = (y 1).val; rw [e5]; omega

/-- The input window's block at point `t` is rows `4000·t …` of the input array. -/
theorem read_x (c : Dev nD) (t : Fin cfg1.N) (y : S4000x256.Idx) (i : S100000x256.Idx)
    (h0 : (i 0).val = t.val * 4000 + (y 0).val) (h1 : (i 1).val = (y 1).val) :
    (iblk1 V c 0 t : S4000x256.Idx → EReal) y = (V c main_v33 : S100000x256.Idx → EReal) i := by
  obtain ⟨e0, e1, -, -, -, -, -, -⟩ := idx_facts t
  unfold iblk1
  rw [View.read_apply]
  show V c main_v33 (((cfg1.win 0).blk t).view.emb y) = V c main_v33 i
  refine congrArg (V c main_v33) ?_
  funext a; apply Fin.ext
  match a with
  | ⟨0, _⟩ => show win1_0.index t (0 : Fin 2) * 4000 + 1 * (y 0).val = (i 0).val; rw [e0, h0]; omega
  | ⟨1, _⟩ => show win1_0.index t (1 : Fin 2) * 256 + 1 * (y 1).val = (i 1).val; rw [e1, h1]; omega

/-- WHAT POINT `t` WRITES BACK is block `t` of the dense layer of the arrays as the launch finds them. -/
theorem flushed_eq (c : Dev nD) (t : Fin cfg1.N) :
    (dat1 V c).flushed 3 t = ((cfg1.win 3).blk t).view.read (Elt Ideal)
      (dense act (V c main_v33 : S100000x256.Idx → EReal) (V c main_v36 : S256x256.Idx → EReal) (V c main_v39 : S1x256.Idx → EReal)) := by
  show (cfg1.win 3).cut (grid1.coords t) ((dat1 V c).after 3 t) = _
  rw [after1_3]
  unfold out1_3
  rw [View.canon_unit_zero zeros2]
  simp only [View.ld_unit_zero (S := S4000x256) zeros2, View.ld_unit_zero (S := S256x256) zeros2, View.ld_unit_zero (S := S1x256) zeros2]
  rw [pay_eq]
  obtain ⟨-, -, -, -, -, -, e6, e7⟩ := idx_facts t
  funext j
  rw [View.read_apply]
  refine block_layer (V c main_v33) (V c main_v36) (V c main_v39) (iblk1 V c 0 t) (iblk1 V c 1 t) (iblk1 V c 2 t) j
    (((cfg1.win 3).blk t).view.emb j) ?_ (fun k => ?_) (read_w V c t) (read_b V c t)
  · apply Fin.ext
    show win1_3.index t (1 : Fin 2) * 256 + 1 * (j 1).val = (j 1).val
    rw [e7]; omega
  · refine read_x V c t _ _ ?_ rfl
    show win1_3.index t (0 : Fin 2) * 4000 + 1 * (j 0).val = t.val * 4000 + (j 0).val
    rw [e6]; omega

/-- An index of the output array is in point `t`'s block iff each coordinate is in the block's range on its axis. -/
theorem mem_blk (t : Fin cfg1.N) (i : S100000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v40).slice (win1_3.rect t)).set ↔ _
  rw [View.set_slice_whole, Rect.mem_set_unit]
  exact Iff.rfl

/-- The 25 row blocks tile the output: row `r` is in block `r / 4000`. -/
theorem cover (i : S100000x256.Idx) : ∃ t : Fin cfg1.N, (cfg1.win 3).flush t = true ∧ i ∈ ((cfg1.win 3).blk t).view.set := by
  have hi0 : (i 0).val < 100000 := (i 0).isLt
  have hi1 : (i 1).val < 256 := (i 1).isLt
  have hN : cfg1.N = 25 := N_1
  have ht : (i 0).val / 4000 < cfg1.N := by rw [hN]; omega
  obtain ⟨-, -, -, -, -, -, e6, e7⟩ := idx_facts ⟨(i 0).val / 4000, ht⟩
  refine ⟨⟨(i 0).val / 4000, ht⟩, flush1_3 _, ?_⟩
  rw [mem_blk]
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e6]; show (i 0).val / 4000 * 4000 ≤ (i 0).val ∧ (i 0).val < (i 0).val / 4000 * 4000 + 4000; omega
  | ⟨1, _⟩ =>
    show win1_3.index ⟨(i 0).val / 4000, ht⟩ (1 : Fin 2) * 256 ≤ (i 1).val ∧ (i 1).val < win1_3.index ⟨(i 0).val / 4000, ht⟩ (1 : Fin 2) * 256 + 256
    rw [e7]; omega

/-- THE OUTPUT ARRAY after the launch: the dense layer of the input, weight and bias arrays as the launch finds them. -/
theorem layer_out (c : Dev nD) :
    (dat1 V c).arrAt 3 cfg1.N
      = dense act (V c main_v33 : S100000x256.Idx → EReal) (V c main_v36 : S256x256.Idx → EReal) (V c main_v39 : S1x256.Idx → EReal) :=
  (dat1 V c).arrAt_eq_of_cover 3 _ (fun t _ => flushed_eq V c t) cover

end Cert.KernelIdeal.Layer1

end
-- ==== Proof.Layer2.lean ====
/-
  Launch 2 of the dense-layer kernel, as one function of whole arrays.

  The launch walks 25 blocks of 4000 rows.  At block t the body reads rows 4000·t … 4000·t + 3999 of the [100000, 256]
  input, the whole [256, 256] weight matrix and the whole [1, 256] bias row, and writes the same rows of the output:
  entry (p, q) of what it writes is (∑ k, x(4000·t + p, k) · w(k, q)) + b(0, q).
  The 25 blocks tile the output, so after the launch the output array is the dense layer of the three arrays as the
  launch finds them, entry by entry.
-/
import proofs.«109556_j23759759082168_1_alg».proof.Proof.Gen.KernelIdeal.Frame
import proofs.«109556_j23759759082168_1_alg».proof.Proof.LibDenseRow
import proofs.«109556_j23759759082168_1_alg».proof.Proof.Spec
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.Dense Cert.Lib.DenseRow

/-- The layer's activation. -/
abbrev act : EReal → EReal := Spec.lin

theorem zeros2 : (![0, 0] : Fin 2 → Nat) = fun _ => 0 := funext fun a => by fin_cases a <;> rfl

/-- The body's stored value is the dense layer of the three blocks it loads. -/
theorem pay_eq (x0 : Vec Ideal S4000x256 .f32) (x1 : Vec Ideal S256x256 .f32) (x2 : Vec Ideal S1x256 .f32) :
    k2_pay1 (F := Ideal) x0 x1 x2 = dense act x0 x1 x2 :=
  mxu_row_eq_dense dot_S4000x256_S256x256_S4000x256_1_0_0_1_n_n rfl rfl rfl rfl rfl rfl act x0 x1 x2 bitsLt_bf16_f32
    shapeCasts_S4000x256_S4000x256 shapeCasts_S256x256_S256x256 shapeCasts_S1x256_S1x256 broadcasts_S1x256_S4000x256

/-- The blocks' positions, decided over the 25 points: the input and output blocks sit at row block `t`, the weight
    matrix and the bias row are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Dense layers of a row block against the whole arrays: stated over plain arrays. -/
theorem block_layer (X : S100000x256.Idx → EReal) (W : S256x256.Idx → EReal) (B : S1x256.Idx → EReal)
    (xb : S4000x256.Idx → EReal) (wb : S256x256.Idx → EReal) (bb : S1x256.Idx → EReal)
    (j : S4000x256.Idx) (i : S100000x256.Idx) (hi1 : i 1 = j 1)
    (hx : ∀ k : Fin 256, xb (ix2 (j 0) k) = X (ix2 (i 0) k)) (hw : wb = W) (hb : bb = B) :
    dense act xb wb bb j = dense act X W B i := by
  subst hw hb
  have ej : j = ix2 (j 0) (j 1) := eq_ix2 j
  have ei : i = ix2 (i 0) (j 1) := by rw [← hi1]; exact eq_ix2 i
  rw [ej, ei]
  exact dense_of_row act xb X wb wb bb bb (j 0) (i 0) (j 1) hx (fun _ => rfl) rfl

variable (V : (c : Dev nD) → (b : Ref sig .tc) → Buf (Elt Ideal) ((c : Thread nD τ).loc b))

/-- The weight window's block is the whole weight matrix. -/
theorem read_w (c : Dev nD) (t : Fin cfg2.N) : (iblk2 V c 1 t : S256x256.Idx → EReal) = (V c main_v56 : S256x256.Idx → EReal) := by
  obtain ⟨-, -, e2, e3, -, -, -, -⟩ := idx_facts t
  funext y
  unfold iblk2
  rw [View.read_apply]
  show V c main_v56 (((cfg2.win 1).blk t).view.emb y) = V c main_v56 y
  refine congrArg (V c main_v56) ?_
  funext a; apply Fin.ext
  match a with
  | ⟨0, _⟩ => show win2_1.index t (0 : Fin 2) * 256 + 1 * (y 0).val = (y 0).val; rw [e2]; omega
  | ⟨1, _⟩ => show win2_1.index t (1 : Fin 2) * 256 + 1 * (y 1).val = (y 1).val; rw [e3]; omega

/-- The bias window's block is the whole bias row. -/
theorem read_b (c : Dev nD) (t : Fin cfg2.N) : (iblk2 V c 2 t : S1x256.Idx → EReal) = (V c main_v59 : S1x256.Idx → EReal) := by
  obtain ⟨-, -, -, -, e4, e5, -, -⟩ := idx_facts t
  funext y
  unfold iblk2
  rw [View.read_apply]
  show V c main_v59 (((cfg2.win 2).blk t).view.emb y) = V c main_v59 y
  refine congrArg (V c main_v59) ?_
  funext a; apply Fin.ext
  match a with
  | ⟨0, _⟩ => show win2_2.index t (0 : Fin 2) * 1 + 1 * (y 0).val = (y 0).val; rw [e4]; omega
  | ⟨1, _⟩ => show win2_2.index t (1 : Fin 2) * 256 + 1 * (y 1).val = (y 1).val; rw [e5]; omega

/-- The input window's block at point `t` is rows `4000·t …` of the input array. -/
theorem read_x (c : Dev nD) (t : Fin cfg2.N) (y : S4000x256.Idx) (i : S100000x256.Idx)
    (h0 : (i 0).val = t.val * 4000 + (y 0).val) (h1 : (i 1).val = (y 1).val) :
    (iblk2 V c 0 t : S4000x256.Idx → EReal) y = (V c main_v53 : S100000x256.Idx → EReal) i := by
  obtain ⟨e0, e1, -, -, -, -, -, -⟩ := idx_facts t
  unfold iblk2
  rw [View.read_apply]
  show V c main_v53 (((cfg2.win 0).blk t).view.emb y) = V c main_v53 i
  refine congrArg (V c main_v53) ?_
  funext a; apply Fin.ext
  match a with
  | ⟨0, _⟩ => show win2_0.index t (0 : Fin 2) * 4000 + 1 * (y 0).val = (i 0).val; rw [e0, h0]; omega
  | ⟨1, _⟩ => show win2_0.index t (1 : Fin 2) * 256 + 1 * (y 1).val = (i 1).val; rw [e1, h1]; omega

/-- WHAT POINT `t` WRITES BACK is block `t` of the dense layer of the arrays as the launch finds them. -/
theorem flushed_eq (c : Dev nD) (t : Fin cfg2.N) :
    (dat2 V c).flushed 3 t = ((cfg2.win 3).blk t).view.read (Elt Ideal)
      (dense act (V c main_v53 : S100000x256.Idx → EReal) (V c main_v56 : S256x256.Idx → EReal) (V c main_v59 : S1x256.Idx → EReal)) := by
  show (cfg2.win 3).cut (grid2.coords t) ((dat2 V c).after 3 t) = _
  rw [after2_3]
  unfold out2_3
  rw [View.canon_unit_zero zeros2]
  simp only [View.ld_unit_zero (S := S4000x256) zeros2, View.ld_unit_zero (S := S256x256) zeros2, View.ld_unit_zero (S := S1x256) zeros2]
  rw [pay_eq]
  obtain ⟨-, -, -, -, -, -, e6, e7⟩ := idx_facts t
  funext j
  rw [View.read_apply]
  refine block_layer (V c main_v53) (V c main_v56) (V c main_v59) (iblk2 V c 0 t) (iblk2 V c 1 t) (iblk2 V c 2 t) j
    (((cfg2.win 3).blk t).view.emb j) ?_ (fun k => ?_) (read_w V c t) (read_b V c t)
  · apply Fin.ext
    show win2_3.index t (1 : Fin 2) * 256 + 1 * (j 1).val = (j 1).val
    rw [e7]; omega
  · refine read_x V c t _ _ ?_ rfl
    show win2_3.index t (0 : Fin 2) * 4000 + 1 * (j 0).val = t.val * 4000 + (j 0).val
    rw [e6]; omega

/-- An index of the output array is in point `t`'s block iff each coordinate is in the block's range on its axis. -/
theorem mem_blk (t : Fin cfg2.N) (i : S100000x256.Idx) :
    i ∈ ((cfg2.win 3).blk t).view.set ↔ ∀ a : Fin 2, win2_3.index t a * S4000x256.size a ≤ (i a).val ∧ (i a).val < win2_3.index t a * S4000x256.size a + S4000x256.size a := by
  show i ∈ ((View.whole main_v60).slice (win2_3.rect t)).set ↔ _
  rw [View.set_slice_whole, Rect.mem_set_unit]
  exact Iff.rfl

/-- The 25 row blocks tile the output: row `r` is in block `r / 4000`. -/
theorem cover (i : S100000x256.Idx) : ∃ t : Fin cfg2.N, (cfg2.win 3).flush t = true ∧ i ∈ ((cfg2.win 3).blk t).view.set := by
  have hi0 : (i 0).val < 100000 := (i 0).isLt
  have hi1 : (i 1).val < 256 := (i 1).isLt
  have hN : cfg2.N = 25 := N_2
  have ht : (i 0).val / 4000 < cfg2.N := by rw [hN]; omega
  obtain ⟨-, -, -, -, -, -, e6, e7⟩ := idx_facts ⟨(i 0).val / 4000, ht⟩
  refine ⟨⟨(i 0).val / 4000, ht⟩, flush2_3 _, ?_⟩
  rw [mem_blk]
  intro a
  match a with
  | ⟨0, _⟩ =>
    show win2_3.index ⟨(i 0).val / 4000, ht⟩ (0 : Fin 2) * 4000 ≤ (i 0).val ∧ (i 0).val < win2_3.index ⟨(i 0).val / 4000, ht⟩ (0 : Fin 2) * 4000 + 4000
    rw [e6]; show (i 0).val / 4000 * 4000 ≤ (i 0).val ∧ (i 0).val < (i 0).val / 4000 * 4000 + 4000; omega
  | ⟨1, _⟩ =>
    show win2_3.index ⟨(i 0).val / 4000, ht⟩ (1 : Fin 2) * 256 ≤ (i 1).val ∧ (i 1).val < win2_3.index ⟨(i 0).val / 4000, ht⟩ (1 : Fin 2) * 256 + 256
    rw [e7]; omega

/-- THE OUTPUT ARRAY after the launch: the dense layer of the input, weight and bias arrays as the launch finds them. -/
theorem layer_out (c : Dev nD) :
    (dat2 V c).arrAt 3 cfg2.N
      = dense act (V c main_v53 : S100000x256.Idx → EReal) (V c main_v56 : S256x256.Idx → EReal) (V c main_v59 : S1x256.Idx → EReal) :=
  (dat2 V c).arrAt_eq_of_cover 3 _ (fun t _ => flushed_eq V c t) cover

end Cert.KernelIdeal.Layer2

end
-- ==== Proof.RunResults.lean ====
/-
  The kernel program's run with its two results named.

  The program is three launches of the dense-layer kernel among four stretches of host operations.  Every weakly fair
  execution terminates, faultless, and ends with every buffer of the TensorCore at the contents the last stretch of
  host operations leaves (`W7`): in particular the two returned halves of the last layer's output, and the seven
  arguments, which nothing writes.
-/
import proofs.«109556_j23759759082168_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results end at what the last stretch of host operations leaves in them, the arguments as launched. -/
theorem run_results : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Whole

end
-- ==== Proof.KernelValue.lean ====
/-
  What the kernel program's two results hold: the network of Spec, read off the run stage by stage.

  The program alternates stretches of host operations with launches of the dense-layer kernel.  A stretch computes, from
  the features it is handed and the arguments, the aggregated features, the layer's transposed weight matrix and its
  bias row (read here as the composed operations, the aggregation kept opaque); a launch leaves in its output array the
  dense layer of those three arrays (Layer0–2).  No stretch and no launch writes an argument, so every stage reads
  the arguments as launched.  Composing the stages from the launch memory gives the features after each layer, and the
  last stretch slices the two halves.
-/
import proofs.«109556_j23759759082168_1_alg».proof.Proof.Gen.KernelIdeal.Frame
import proofs.«109556_j23759759082168_1_alg».proof.Proof.Spec
import proofs.«109556_j23759759082168_1_alg».proof.Proof.Layer0
import proofs.«109556_j23759759082168_1_alg».proof.Proof.Layer1
import proofs.«109556_j23759759082168_1_alg».proof.Proof.Layer2
import proofs.«109556_j23759759082168_1_alg».proof.Proof.RunResults
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.Lib.Dense

/-- Dense layers of equal arrays are equal. -/
theorem dense_congr {M K N : ℕ} (act : EReal → EReal) {x x' : (⟨2, ![M, K]⟩ : Shape).Idx → EReal} {w w' : (⟨2, ![K, N]⟩ : Shape).Idx → EReal}
    {b b' : (⟨2, ![1, N]⟩ : Shape).Idx → EReal} (hx : x = x') (hw : w = w') (hb : b = b') : dense act x w b = dense act x' w' b' := by
  subst hx hw hb; rfl

/-! ## The stretches of host operations, from any contents -/

section Stretches

variable (Wv : Valuation τ sig (Elt Ideal))

/-- A buffer that no operation of a stretch writes keeps its contents through it. -/
macro "keeps_arg" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem keep0_arg0 : StableHlo.after (hostOps0 (F := Ideal)) Wv (Proc.devRef .tc main_arg0) = Wv (Proc.devRef .tc main_arg0) := by keeps_arg
theorem keep0_arg1 : StableHlo.after (hostOps0 (F := Ideal)) Wv (Proc.devRef .tc main_arg1) = Wv (Proc.devRef .tc main_arg1) := by keeps_arg
theorem keep0_arg2 : StableHlo.after (hostOps0 (F := Ideal)) Wv (Proc.devRef .tc main_arg2) = Wv (Proc.devRef .tc main_arg2) := by keeps_arg
theorem keep0_arg5 : StableHlo.after (hostOps0 (F := Ideal)) Wv (Proc.devRef .tc main_arg5) = Wv (Proc.devRef .tc main_arg5) := by keeps_arg
theorem keep0_arg6 : StableHlo.after (hostOps0 (F := Ideal)) Wv (Proc.devRef .tc main_arg6) = Wv (Proc.devRef .tc main_arg6) := by keeps_arg
theorem keep1_arg0 : StableHlo.after (hostOps1 (F := Ideal)) Wv (Proc.devRef .tc main_arg0) = Wv (Proc.devRef .tc main_arg0) := by keeps_arg
theorem keep1_arg1 : StableHlo.after (hostOps1 (F := Ideal)) Wv (Proc.devRef .tc main_arg1) = Wv (Proc.devRef .tc main_arg1) := by keeps_arg
theorem keep1_arg2 : StableHlo.after (hostOps1 (F := Ideal)) Wv (Proc.devRef .tc main_arg2) = Wv (Proc.devRef .tc main_arg2) := by keeps_arg
theorem keep1_arg5 : StableHlo.after (hostOps1 (F := Ideal)) Wv (Proc.devRef .tc main_arg5) = Wv (Proc.devRef .tc main_arg5) := by keeps_arg
theorem keep1_arg6 : StableHlo.after (hostOps1 (F := Ideal)) Wv (Proc.devRef .tc main_arg6) = Wv (Proc.devRef .tc main_arg6) := by keeps_arg

set_option maxHeartbeats 4000000 in
/-- Stretch 0: the aggregated starting features. -/
theorem s0_x (r cl : (⟨S1000000, .i32⟩ : BufTy).Contents (Elt Ideal)) (v : (⟨S1000000, .f32⟩ : BufTy).Contents (Elt Ideal)) (a3 a4 : (⟨S50000x256, .f32⟩ : BufTy).Contents (Elt Ideal))
    (h0 : Wv (Proc.devRef .tc main_arg0) = r) (h1 : Wv (Proc.devRef .tc main_arg1) = cl) (h2 : Wv (Proc.devRef .tc main_arg2) = v)
    (h3 : Wv (Proc.devRef .tc main_arg3) = a3) (h4 : Wv (Proc.devRef .tc main_arg4) = a4) :
    StableHlo.after (hostOps0 (F := Ideal)) Wv (Proc.devRef .tc main_v13) = Spec.agg r cl v (Spec.feat0 a3 a4) := by
  subst h0 h1 h2 h3 h4
  after_results_simp <;> rfl

/-- Stretch 0: the first layer's weight matrix. -/
theorem s0_w (a5 : (⟨S3x256x256, .f32⟩ : BufTy).Contents (Elt Ideal)) (h5 : Wv (Proc.devRef .tc main_arg5) = a5) :
    StableHlo.after (hostOps0 (F := Ideal)) Wv (Proc.devRef .tc main_v16)
      = Spec.wOf (extractStridedSlice S1x256x256 ![0, 0, 0] a5 slices_S3x256x256_S1x256x256_0_0_0) := by
  subst h5
  after_results_simp <;> rfl

/-- Stretch 0: the first layer's bias row. -/
theorem s0_b (a6 : (⟨S3x256, .f32⟩ : BufTy).Contents (Elt Ideal)) (h6 : Wv (Proc.devRef .tc main_arg6) = a6) :
    StableHlo.after (hostOps0 (F := Ideal)) Wv (Proc.devRef .tc main_v19)
      = Spec.bRow (extractStridedSlice S1x256 ![0, 0] a6 slices_S3x256_S1x256_0_0) := by
  subst h6
  after_results_simp <;> rfl

set_option maxHeartbeats 4000000 in
/-- Stretch 1: the aggregated features it hands to launch 1. -/
theorem s1_x (r cl : (⟨S1000000, .i32⟩ : BufTy).Contents (Elt Ideal)) (v : (⟨S1000000, .f32⟩ : BufTy).Contents (Elt Ideal)) (f : (⟨S100000x256, .f32⟩ : BufTy).Contents (Elt Ideal))
    (h0 : Wv (Proc.devRef .tc main_arg0) = r) (h1 : Wv (Proc.devRef .tc main_arg1) = cl) (h2 : Wv (Proc.devRef .tc main_arg2) = v) (hf : Wv (Proc.devRef .tc main_v20) = f) :
    StableHlo.after (hostOps1 (F := Ideal)) Wv (Proc.devRef .tc main_v33) = Spec.agg r cl v f := by
  subst h0 h1 h2 hf
  after_results_simp <;> rfl

/-- Stretch 1: the weight matrix it hands to launch 1. -/
theorem s1_w (a5 : (⟨S3x256x256, .f32⟩ : BufTy).Contents (Elt Ideal)) (h5 : Wv (Proc.devRef .tc main_arg5) = a5) :
    StableHlo.after (hostOps1 (F := Ideal)) Wv (Proc.devRef .tc main_v36)
      = Spec.wOf (extractStridedSlice S1x256x256 ![1, 0, 0] a5 slices_S3x256x256_S1x256x256_1_0_0) := by
  subst h5
  after_results_simp <;> rfl

/-- Stretch 1: the bias row it hands to launch 1. -/
theorem s1_b (a6 : (⟨S3x256, .f32⟩ : BufTy).Contents (Elt Ideal)) (h6 : Wv (Proc.devRef .tc main_arg6) = a6) :
    StableHlo.after (hostOps1 (F := Ideal)) Wv (Proc.devRef .tc main_v39)
      = Spec.bRow (extractStridedSlice S1x256 ![1, 0] a6 slices_S3x256_S1x256_1_0) := by
  subst h6
  after_results_simp <;> rfl

set_option maxHeartbeats 4000000 in
/-- Stretch 2: the aggregated features it hands to launch 2. -/
theorem s2_x (r cl : (⟨S1000000, .i32⟩ : BufTy).Contents (Elt Ideal)) (v : (⟨S1000000, .f32⟩ : BufTy).Contents (Elt Ideal)) (f : (⟨S100000x256, .f32⟩ : BufTy).Contents (Elt Ideal))
    (h0 : Wv (Proc.devRef .tc main_arg0) = r) (h1 : Wv (Proc.devRef .tc main_arg1) = cl) (h2 : Wv (Proc.devRef .tc main_arg2) = v) (hf : Wv (Proc.devRef .tc main_v40) = f) :
    StableHlo.after (hostOps2 (F := Ideal)) Wv (Proc.devRef .tc main_v53) = Spec.agg r cl v f := by
  subst h0 h1 h2 hf
  after_results_simp <;> rfl

/-- Stretch 2: the weight matrix it hands to launch 2. -/
theorem s2_w (a5 : (⟨S3x256x256, .f32⟩ : BufTy).Contents (Elt Ideal)) (h5 : Wv (Proc.devRef .tc main_arg5) = a5) :
    StableHlo.after (hostOps2 (F := Ideal)) Wv (Proc.devRef .tc main_v56)
      = Spec.wOf (extractStridedSlice S1x256x256 ![2, 0, 0] a5 slices_S3x256x256_S1x256x256_2_0_0) := by
  subst h5
  after_results_simp <;> rfl

/-- Stretch 2: the bias row it hands to launch 2. -/
theorem s2_b (a6 : (⟨S3x256, .f32⟩ : BufTy).Contents (Elt Ideal)) (h6 : Wv (Proc.devRef .tc main_arg6) = a6) :
    StableHlo.after (hostOps2 (F := Ideal)) Wv (Proc.devRef .tc main_v59)
      = Spec.bRow (extractStridedSlice S1x256 ![2, 0] a6 slices_S3x256_S1x256_2_0) := by
  subst h6
  after_results_simp <;> rfl

/-- The last stretch: the upper half of the last layer's rows. -/
theorem s3_upper (f : (⟨S100000x256, .f32⟩ : BufTy).Contents (Elt Ideal)) (hf : Wv (Proc.devRef .tc main_v60) = f) :
    StableHlo.after (hostOps3 (F := Ideal)) Wv (Proc.devRef .tc main_v61) = extractStridedSlice S50000x256 ![0, 0] f slices_S100000x256_S50000x256_0_0 := by
  subst hf
  after_results_simp <;> rfl

/-- The last stretch: the lower half of the last layer's rows. -/
theorem s3_lower (f : (⟨S100000x256, .f32⟩ : BufTy).Contents (Elt Ideal)) (hf : Wv (Proc.devRef .tc main_v60) = f) :
    StableHlo.after (hostOps3 (F := Ideal)) Wv (Proc.devRef .tc main_v62) = extractStridedSlice S50000x256 ![50000, 0] f slices_S100000x256_S50000x256_50000_0 := by
  subst hf
  after_results_simp <;> rfl

end Stretches

/-! ## The stages from the launch memory -/

variable (m : (ℓ : Loc nD τ sig) → Buf (Elt Ideal) ℓ) (ρ : Dev nD → PrngReg)

/-! ### The arguments, as the later stretches find them -/

theorem W2_arg0 (c : Dev nD) : W2 m ρ c (Proc.devRef .tc main_arg0) = m ((c : Thread nD τ).loc main_arg0) :=
  (W2_of_ne m ρ c main_arg0 (by decide)).trans (keep0_arg0 (W0 m ρ c))
theorem W2_arg1 (c : Dev nD) : W2 m ρ c (Proc.devRef .tc main_arg1) = m ((c : Thread nD τ).loc main_arg1) :=
  (W2_of_ne m ρ c main_arg1 (by decide)).trans (keep0_arg1 (W0 m ρ c))
theorem W2_arg2 (c : Dev nD) : W2 m ρ c (Proc.devRef .tc main_arg2) = m ((c : Thread nD τ).loc main_arg2) :=
  (W2_of_ne m ρ c main_arg2 (by decide)).trans (keep0_arg2 (W0 m ρ c))
theorem W2_arg5 (c : Dev nD) : W2 m ρ c (Proc.devRef .tc main_arg5) = m ((c : Thread nD τ).loc main_arg5) :=
  (W2_of_ne m ρ c main_arg5 (by decide)).trans (keep0_arg5 (W0 m ρ c))
theorem W2_arg6 (c : Dev nD) : W2 m ρ c (Proc.devRef .tc main_arg6) = m ((c : Thread nD τ).loc main_arg6) :=
  (W2_of_ne m ρ c main_arg6 (by decide)).trans (keep0_arg6 (W0 m ρ c))
theorem W4_arg0 (c : Dev nD) : W4 m ρ c (Proc.devRef .tc main_arg0) = m ((c : Thread nD τ).loc main_arg0) :=
  (W4_of_ne m ρ c main_arg0 (by decide)).trans ((keep1_arg0 (W2 m ρ c)).trans (W2_arg0 m ρ c))
theorem W4_arg1 (c : Dev nD) : W4 m ρ c (Proc.devRef .tc main_arg1) = m ((c : Thread nD τ).loc main_arg1) :=
  (W4_of_ne m ρ c main_arg1 (by decide)).trans ((keep1_arg1 (W2 m ρ c)).trans (W2_arg1 m ρ c))
theorem W4_arg2 (c : Dev nD) : W4 m ρ c (Proc.devRef .tc main_arg2) = m ((c : Thread nD τ).loc main_arg2) :=
  (W4_of_ne m ρ c main_arg2 (by decide)).trans ((keep1_arg2 (W2 m ρ c)).trans (W2_arg2 m ρ c))
theorem W4_arg5 (c : Dev nD) : W4 m ρ c (Proc.devRef .tc main_arg5) = m ((c : Thread nD τ).loc main_arg5) :=
  (W4_of_ne m ρ c main_arg5 (by decide)).trans ((keep1_arg5 (W2 m ρ c)).trans (W2_arg5 m ρ c))
theorem W4_arg6 (c : Dev nD) : W4 m ρ c (Proc.devRef .tc main_arg6) = m ((c : Thread nD τ).loc main_arg6) :=
  (W4_of_ne m ρ c main_arg6 (by decide)).trans ((keep1_arg6 (W2 m ρ c)).trans (W2_arg6 m ρ c))

/-! ### The features after each launch -/

/-- After launch 0 the first layer's features. -/
theorem after_launch0 (c : Dev nD) : W2 m ρ c (Proc.devRef .tc main_v20) = Spec.feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W2_arr m ρ c 3).trans (Layer0.layer_out (V1 m ρ) c)).trans
    (dense_congr Spec.relu
      (s0_x (W0 m ρ c) _ _ _ _ _ rfl rfl rfl rfl rfl)
      (s0_w (W0 m ρ c) _ rfl)
      (s0_b (W0 m ρ c) _ rfl))

/-- After launch 1 the second layer's features. -/
theorem after_launch1 (c : Dev nD) : W4 m ρ c (Proc.devRef .tc main_v40) = Spec.feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W4_arr m ρ c 3).trans (Layer1.layer_out (V3 m ρ) c)).trans
    (dense_congr Spec.relu
      (s1_x (W2 m ρ c) _ _ _ _ (W2_arg0 m ρ c) (W2_arg1 m ρ c) (W2_arg2 m ρ c) (after_launch0 m ρ c))
      (s1_w (W2 m ρ c) _ (W2_arg5 m ρ c))
      (s1_b (W2 m ρ c) _ (W2_arg6 m ρ c)))

/-- After launch 2 the third layer's features. -/
theorem after_launch2 (c : Dev nD) : W6 m ρ c (Proc.devRef .tc main_v60) = Spec.feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W6_arr m ρ c 3).trans (Layer2.layer_out (V5 m ρ) c)).trans
    (dense_congr Spec.lin
      (s2_x (W4 m ρ c) _ _ _ _ (W4_arg0 m ρ c) (W4_arg1 m ρ c) (W4_arg2 m ρ c) (after_launch1 m ρ c))
      (s2_w (W4 m ρ c) _ (W4_arg5 m ρ c))
      (s2_b (W4 m ρ c) _ (W4_arg6 m ρ c)))

/-! ## The run, read -/

/-- Every weakly fair execution of the kernel program ends with its two results at the network's two halves and its
    arguments as launched. -/
theorem run : θ_run defs (onTc (τ := τ) (main (F := Ideal))) ⟨m, fun _ => 0, ρ⟩ (fun r => ∀ c : Dev nD,
      r.2.mem ((c.tc : Thread nD τ).loc main_v61) = Spec.outUpper (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v62) = Spec.outLower (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c).1.trans (s3_upper (W6 m ρ c) _ (after_launch2 m ρ c)),
       (h c).2.1.trans (s3_lower (W6 m ρ c) _ (after_launch2 m ρ c)),
       (h c).2.2⟩)
    (run_results m ρ)

end Cert.KernelIdeal.Whole

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibDenseHost.lean ====
/-
  Dense layers and the combine step, spelt with the host's operations.
-/
import proofs.«109556_j23759759082168_1_alg».proof.Proof.LibDense
import proofs.«109556_j23759759082168_1_alg».proof.Proof.LibIndexNorm
import proofs.«109556_j23759759082168_1_alg».proof.Proof.LibKeepdims

noncomputable section

namespace Cert.Lib.Dense

open Idealize.ShloMosaic Idealize.ShloMosaic.ValueIdx
open scoped BigOperators

/-! ## The same layers spelt with the host's operations

  On the host a dense layer is `act (dot(x, w) + rows(row(b)))`: the bias vector made a row, the row spread over all
  rows.  In the kernel the bias vector is cast to a row and the layer is `dense`.  Entry by entry both are
  `act ((∑ k, x(p, k) · w(k, q)) + b(q))`.  Likewise the combine step: the kernel casts the squared scale vector to a
  column, the host spreads it over the columns. -/

section HostForms

open Cert.Lib.IndexNorm Cert.Lib.Keepdims

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

theorem exists_ix2 {a b : ℕ} (i : (⟨2, ![a, b]⟩ : Shape).Idx) : ∃ (p : Fin a) (q : Fin b), i = ix2 p q :=
  ⟨i 0, i 1, eq_ix2 i⟩

include hlc hrc hln hrn hlb hrb in
/-- A dense layer whose bias row is a vector cast to a row is the host's `act (dot + spread bias)`. -/
theorem dense_eq_host (act : EReal → EReal) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense act x w (shapeCast ⟨2, ![1, N]⟩ b hc)
      = fun i => act (addf (F := Ideal) (Host.dotGeneral D none x w)
          (broadcastInDim ⟨2, ![M, N]⟩ ![0, 1] h₂ (broadcastInDim ⟨2, ![1, N]⟩ ![1] h₁ b)) i) := by
  funext i
  obtain ⟨p, q, rfl⟩ := exists_ix2 i
  rw [dense_ix2]
  refine congrArg act (congrArg₂ (fun a b : EReal => a + b) ?_ ?_)
  · exact (dotGeneral_at D hlc hrc hln hrn hlb hrb x w p q).symm
  · exact (shapeCast_a_1a_apply b hc 0 q).trans (bcast_row_rows_apply b h₁ h₂ p q).symm

include hlc hrc hln hrn hlb hrb in
/-- With tanh: the host's `tanh (dot + spread bias)`. -/
theorem dense_tanh_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense Ideal.tanh x w (shapeCast ⟨2, ![1, N]⟩ b hc)
      = Host.tanh (F := Ideal) (addf (F := Ideal) (Host.dotGeneral D none x w)
          (broadcastInDim ⟨2, ![M, N]⟩ ![0, 1] h₂ (broadcastInDim ⟨2, ![1, N]⟩ ![1] h₁ b))) :=
  (dense_eq_host D hlc hrc hln hrn hlb hrb Ideal.tanh x w b hc h₁ h₂).trans
    (funext fun i => (Ideal.hostUnary_tanh_def _).symm)

include hlc hrc hln hrn hlb hrb in
/-- Without an activation: the host's `dot + spread bias`. -/
theorem dense_id_eq_host (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (h₁ : (⟨1, ![N]⟩ : Shape).BroadcastsInDim ⟨2, ![1, N]⟩ ![1])
    (h₂ : (⟨2, ![1, N]⟩ : Shape).BroadcastsInDim ⟨2, ![M, N]⟩ ![0, 1]) :
    dense id x w (shapeCast ⟨2, ![1, N]⟩ b hc)
      = addf (F := Ideal) (Host.dotGeneral D none x w)
          (broadcastInDim ⟨2, ![M, N]⟩ ![0, 1] h₂ (broadcastInDim ⟨2, ![1, N]⟩ ![1] h₁ b)) :=
  (dense_eq_host D hlc hrc hln hrn hlb hrb id x w b hc h₁ h₂).trans rfl

include hlc hrc hln hrn hlb hrb in
/-- A dense layer whose bias row is the zero vector cast to a row is the host's plain dot product. -/
theorem dense_zero_eq_dot (x : FVec Ideal ⟨2, ![M, K]⟩ .f32) (w : FVec Ideal ⟨2, ![K, N]⟩ .f32)
    (h₀ : (⟨0, ![]⟩ : Shape).BroadcastsInDim ⟨1, ![N]⟩ ![]) (hc : (⟨1, ![N]⟩ : Shape).ShapeCasts ⟨2, ![1, N]⟩) :
    dense id x w (shapeCast ⟨2, ![1, N]⟩
        (broadcastInDim ⟨1, ![N]⟩ ![] h₀ (constant (F := Ideal) ⟨0, ![]⟩ .f32 0x00000000#32)) hc)
      = Host.dotGeneral D none x w := by
  funext i
  obtain ⟨p, q, rfl⟩ := exists_ix2 i
  rw [dense_ix2]
  have hz : shapeCast ⟨2, ![1, N]⟩ (broadcastInDim ⟨1, ![N]⟩ ![] h₀ (constant (F := Ideal) ⟨0, ![]⟩ .f32 0x00000000#32)) hc
      (ix2 (0 : Fin 1) q) = (0 : EReal) :=
    (shapeCast_a_1a_apply _ hc 0 q).trans
      ((broadcastInDim_apply ![] h₀ _ (ix1 q) ix0 (fun a => a.elim0)).trans Ideal.ofBits_zero_f32)
  show rowDot x w p q + _ = _
  rw [hz, add_zero]
  exact (dotGeneral_at D hlc hrc hln hrn hlb hrb x w p q).symm

/-- The combine step with the squared scale vector cast to a column and the bias vector cast to a row is the host's
    `tanh((a + h · cols(col(d · d))) + rows(row(b)))`. -/
theorem combine_eq_host (a h : FVec Ideal ⟨2, ![M, N]⟩ .f32) (d : FVec Ideal ⟨1, ![M]⟩ .f32) (b : FVec Ideal ⟨1, ![N]⟩ .f32)
    (hc₁ : (⟨1, ![M]⟩ : Shape).ShapeCasts ⟨2, ![M, 1]⟩) (hc₂ : (⟨1, ![N]⟩ : Shape).ShapeCasts ⟨2, ![1, N]⟩)
    (hd₁ : (⟨1, ![M]⟩ : Shape).BroadcastsInDim ⟨2, ![M, 1]⟩ ![0])
    (hd₂ : (⟨2, ![M, 1]⟩ : Shape).BroadcastsInDim ⟨2, ![M, N]⟩ ![0, 1])
    (hb₁ : (⟨1, ![N]⟩ : Shape).BroadcastsInDim ⟨2, ![1, N]⟩ ![1])
    (hb₂ : (⟨2, ![1, N]⟩ : Shape).BroadcastsInDim ⟨2, ![M, N]⟩ ![0, 1]) :
    combine a h (shapeCast ⟨2, ![M, 1]⟩ (mulf (F := Ideal) d d) hc₁) (shapeCast ⟨2, ![1, N]⟩ b hc₂)
      = Host.tanh (F := Ideal) (addf (addf a (mulf h
          (broadcastInDim ⟨2, ![M, N]⟩ ![0, 1] hd₂ (broadcastInDim ⟨2, ![M, 1]⟩ ![0] hd₁ (mulf (F := Ideal) d d)))))
          (broadcastInDim ⟨2, ![M, N]⟩ ![0, 1] hb₂ (broadcastInDim ⟨2, ![1, N]⟩ ![1] hb₁ b))) := by
  funext i
  obtain ⟨p, q, rfl⟩ := exists_ix2 i
  rw [combine_ix2]
  refine congrArg Ideal.tanh (congrArg₂ (fun a b : EReal => a + b) (congrArg₂ (fun a b : EReal => a + b) rfl
    (congrArg₂ (fun a b : EReal => a * b) rfl ?_)) ?_)
  · exact (shapeCast_a_a1_apply _ hc₁ p 0).trans (bcast_col_cols_apply _ hd₁ hd₂ p q).symm
  · exact (shapeCast_a_1a_apply b hc₂ 0 q).trans (bcast_row_rows_apply b hb₁ hb₂ p q).symm

end HostForms

end Cert.Lib.Dense

end
-- ==== Proof.RefValue.lean ====
/-
  What the reference program's two results hold: the same network.

  The reference runs the same aggregation and, for the dense layer, the host's own operations: the general dot product
  of the aggregated features with the transposed weight matrix, plus the bias vector made a row and spread over all
  rows, and for the hidden layers the maximum with a zero splat.  Entry by entry that is the dense layer of Spec — a
  contraction over one axis is the sum over that axis's coordinate, and the spread bias reads the vector's entry of the
  column (LibDenseHost) —, so the composed term the reference's run ends at is the network's.
-/
import proofs.«109556_j23759759082168_1_alg».proof.Proof.Gen.ReferenceIdeal.Run
import proofs.«109556_j23759759082168_1_alg».proof.Proof.Spec
import proofs.«109556_j23759759082168_1_alg».proof.Proof.LibDenseHost

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.Lib.Dense

/-- A hidden layer on the host: dot product, spread bias, maximum with the zero splat. -/
theorem host_relu_layer (x : FVec Ideal S100000x256 .f32) (w : FVec Ideal S256x256 .f32) (b : FVec Ideal S256 .f32) :
    maximumf (F := Ideal) (addf (F := Ideal) (Host.dotGeneral dot_S100000x256_S256x256_S100000x256_1_0_0_1_n_n none x w)
        (broadcastInDim S100000x256 ![0, 1] bcast_S1x256_S100000x256_0_1 (broadcastInDim S1x256 ![1] bcast_S256_S1x256_1 b)))
      (broadcastInDim S100000x256 ![] bcast_S_S100000x256 (constant (F := Ideal) S_ .f32 0x00000000#32))
    = dense Cert.KernelIdeal.Spec.relu x w (shapeCast S1x256 b Cert.KernelIdeal.Gen.shapeCasts_S256_S1x256) :=
  (dense_eq_host dot_S100000x256_S256x256_S100000x256_1_0_0_1_n_n rfl rfl rfl rfl rfl rfl Cert.KernelIdeal.Spec.relu x w b
    Cert.KernelIdeal.Gen.shapeCasts_S256_S1x256 bcast_S256_S1x256_1 bcast_S1x256_S100000x256_0_1).symm

/-- The last layer on the host: dot product and spread bias. -/
theorem host_lin_layer (x : FVec Ideal S100000x256 .f32) (w : FVec Ideal S256x256 .f32) (b : FVec Ideal S256 .f32) :
    addf (F := Ideal) (Host.dotGeneral dot_S100000x256_S256x256_S100000x256_1_0_0_1_n_n none x w)
        (broadcastInDim S100000x256 ![0, 1] bcast_S1x256_S100000x256_0_1 (broadcastInDim S1x256 ![1] bcast_S256_S1x256_1 b))
    = dense Cert.KernelIdeal.Spec.lin x w (shapeCast S1x256 b Cert.KernelIdeal.Gen.shapeCasts_S256_S1x256) :=
  (dense_eq_host dot_S100000x256_S256x256_S100000x256_1_0_0_1_n_n rfl rfl rfl rfl rfl rfl Cert.KernelIdeal.Spec.lin x w b
    Cert.KernelIdeal.Gen.shapeCasts_S256_S1x256 bcast_S256_S1x256_1 bcast_S1x256_S100000x256_0_1).symm

variable (m : (ℓ : Loc nD τ sig) → Buf (Elt Ideal) ℓ)

/-- The first result's composed term is the upper half of the network's last layer. -/
theorem out0_eq (c : Dev nD) : res_out0 (F := Ideal) m c = Cert.KernelIdeal.Spec.outUpper (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_out0 res_main_v69 Cert.KernelIdeal.Spec.outUpper Cert.KernelIdeal.Spec.feat3 Cert.KernelIdeal.Spec.feat2 Cert.KernelIdeal.Spec.feat1
    Cert.KernelIdeal.Spec.layer Cert.KernelIdeal.Spec.bRow
  rw [← host_lin_layer, ← host_relu_layer, ← host_relu_layer]
  rfl

/-- The second result's composed term is the lower half of the network's last layer. -/
theorem out1_eq (c : Dev nD) : res_out1 (F := Ideal) m c = Cert.KernelIdeal.Spec.outLower (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_out1 res_main_v70 Cert.KernelIdeal.Spec.outLower Cert.KernelIdeal.Spec.feat3 Cert.KernelIdeal.Spec.feat2 Cert.KernelIdeal.Spec.feat1
    Cert.KernelIdeal.Spec.layer Cert.KernelIdeal.Spec.bRow
  rw [← host_lin_layer, ← host_relu_layer, ← host_relu_layer]
  rfl

end Cert.ReferenceIdeal.RefValue

end
-- ==== Proof.lean ====
/-
  The claims of this certificate: a three-layer graph network (sparse aggregation over a million edges, then a dense
  layer on the matrix unit) against its jnp reference, equal on the extended reals.

  The kernel program keeps the aggregation on the host and runs each dense layer as a launch over 25 blocks of 4000 rows
  (both operands narrowed to bf16, accumulated in f32 from zero, the bias row added, the maximum with zero for the two
  hidden layers); the reference runs the same aggregation and the host's dot product, spread bias and maximum.  On the
  extended reals narrowing is the identity and both products are the plain sum over the contracted coordinate, so both
  programs end at the one network of Spec.lean (KernelValue.lean, RefValue.lean).  No algebraic law beyond re-indexing
  a finite sum is used, so the finiteness precondition is never opened.  The idealization rewrote nothing.
-/
import proofs.«109556_j23759759082168_1_alg».proof.Defs
import proofs.«109556_j23759759082168_1_alg».proof.Proof.Gen.Kernel
import proofs.«109556_j23759759082168_1_alg».proof.Proof.Gen.Kernel.Skeleton
import proofs.«109556_j23759759082168_1_alg».proof.Proof.Gen.Kernel.Launch
import proofs.«109556_j23759759082168_1_alg».proof.Proof.Gen.Kernel.Points
import proofs.«109556_j23759759082168_1_alg».proof.Proof.Gen.Kernel.Frame
import proofs.«109556_j23759759082168_1_alg».proof.Proof.Gen.KernelIdeal
import proofs.«109556_j23759759082168_1_alg».proof.Proof.Gen.KernelIdeal.Skeleton
import proofs.«109556_j23759759082168_1_alg».proof.Proof.Gen.KernelIdeal.Launch
import proofs.«109556_j23759759082168_1_alg».proof.Proof.Gen.KernelIdeal.Points
import proofs.«109556_j23759759082168_1_alg».proof.Proof.Gen.KernelIdeal.Frame
import proofs.«109556_j23759759082168_1_alg».proof.Proof.Gen.ReferenceIdeal
import proofs.«109556_j23759759082168_1_alg».proof.Proof.Gen.ReferenceIdeal.Run
import proofs.«109556_j23759759082168_1_alg».proof.Proof.Gen.Pre_finite_inputs
import proofs.«109556_j23759759082168_1_alg».proof.Proof.KernelValue
import proofs.«109556_j23759759082168_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end at the network's two halves. -/
theorem algebraic : Cert.algebraic_KernelIdeal_ReferenceIdeal := by
  intro m ρ m' ρ' _ hagree
  refine ⟨fun c => Cert.KernelIdeal.Spec.outUpper (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Spec.outLower (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ?_) (Cert.ReferenceIdeal.Value.run (F := Ideal) m' ρ')
  obtain ⟨e0, e1, e2, e3, e4, e5, e6⟩ := hagree c
  refine ⟨(h c).1.trans ?_, (h c).2.1.trans ?_, (h c).2.2⟩
  · refine (Cert.ReferenceIdeal.RefValue.out0_eq m' c).trans ?_
    rw [e0, e1, e2, e3, e4, e5, e6]
  · refine (Cert.ReferenceIdeal.RefValue.out1_eq m' c).trans ?_
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
